-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x16x56x56 : Shape := ⟨4, ![256, 16, 56, 56]⟩
abbrev S256x16x56x64 : Shape := ⟨4, ![256, 16, 56, 64]⟩
abbrev S1x56x56 : Shape := ⟨3, ![1, 56, 56]⟩
abbrev S_ : Shape := ⟨0, ![]⟩

class Facts : Prop where
  bcast_S_S256x16x56x56 : S_.BroadcastsInDim S256x16x56x56 (![] : Fin 0 → Fin S256x16x56x56.rank)
  reducesTo_S256x16x56x56_S_d0_1_2_3 : S256x16x56x56.ReducesTo [0, 1, 2, 3] S_
  h_S_ : 0 < S_.numel
  bcast_S_S256x16x56x64 : S_.BroadcastsInDim S256x16x56x64 (![] : Fin 0 → Fin S256x16x56x64.rank)
  reducesTo_S256x16x56x64_S_d0_1_2_3 : S256x16x56x64.ReducesTo [0, 1, 2, 3] S_
  bcast_S_S1x56x56 : S_.BroadcastsInDim S1x56x56 (![] : Fin 0 → Fin S1x56x56.rank)
  reducesTo_S1x56x56_S_d0_1_2 : S1x56x56.ReducesTo [0, 1, 2] S_

variable [Facts]

def fn_part1 {F : FTy → Type} [FloatOps F] (main_v13 : IVec S_ 1) (main_v16 : IVec S1x56x56 1) : IVec S_ 1 :=
  let main_c_5 : IVec S_ 1 := constantI S_ 1 1#1
  let main_v17 : IVec S_ 1 := (fun x v => Host.reduce IntOp.andi x v reducesTo_S1x56x56_S_d0_1_2 h_S_) main_v16 main_c_5
  let main_v18 : IVec S_ 1 := andi main_v13 main_v17
  main_v18

def fn {F : FTy → Type} [FloatOps F] (main_arg0 : FVec F S256x16x56x56 .f32) (main_arg1 : FVec F S256x16x56x56 .f32) (main_arg2 : FVec F S256x16x56x64 .f32) (main_arg3 : FVec F S1x56x56 .f32) : IVec S_ 1 :=
  let main_v0 : FVec F S256x16x56x56 .f32 := Host.absf main_arg0
  let main_cst : FVec F S_ .f32 := constant S_ .f32 0x7F800000#32
  let main_v1 : FVec F S256x16x56x56 .f32 := broadcastInDim S256x16x56x56 ![] bcast_S_S256x16x56x56 main_cst
  let main_v2 : IVec S256x16x56x56 1 := cmpf .olt main_v0 main_v1
  let main_c : IVec S_ 1 := constantI S_ 1 1#1
  let main_v3 : IVec S_ 1 := (fun x v => Host.reduce IntOp.andi x v reducesTo_S256x16x56x56_S_d0_1_2_3 h_S_) main_v2 main_c
  let main_v4 : FVec F S256x16x56x56 .f32 := Host.absf main_arg1
  let main_cst_0 : FVec F S_ .f32 := constant S_ .f32 0x7F800000#32
  let main_v5 : FVec F S256x16x56x56 .f32 := broadcastInDim S256x16x56x56 ![] bcast_S_S256x16x56x56 main_cst_0
  let main_v6 : IVec S256x16x56x56 1 := cmpf .olt main_v4 main_v5
  let main_c_1 : IVec S_ 1 := constantI S_ 1 1#1
  let main_v7 : IVec S_ 1 := (fun x v => Host.reduce IntOp.andi x v reducesTo_S256x16x56x56_S_d0_1_2_3 h_S_) main_v6 main_c_1
  let main_v8 : IVec S_ 1 := andi main_v3 main_v7
  let main_v9 : FVec F S256x16x56x64 .f32 := Host.absf main_arg2
  let main_cst_2 : FVec F S_ .f32 := constant S_ .f32 0x7F800000#32
  let main_v10 : FVec F S256x16x56x64 .f32 := broadcastInDim S256x16x56x64 ![] bcast_S_S256x16x56x64 main_cst_2
  let main_v11 : IVec S256x16x56x64 1 := cmpf .olt main_v9 main_v10
  let main_c_3 : IVec S_ 1 := constantI S_ 1 1#1
  let main_v12 : IVec S_ 1 := (fun x v => Host.reduce IntOp.andi x v reducesTo_S256x16x56x64_S_d0_1_2_3 h_S_) main_v11 main_c_3
  let main_v13 : IVec S_ 1 := andi main_v8 main_v12
  let main_v14 : FVec F S1x56x56 .f32 := Host.absf main_arg3
  let main_cst_4 : FVec F S_ .f32 := constant S_ .f32 0x7F800000#32
  let main_v15 : FVec F S1x56x56 .f32 := broadcastInDim S1x56x56 ![] bcast_S_S1x56x56 main_cst_4
  let main_v16 : IVec S1x56x56 1 := cmpf .olt main_v14 main_v15
  fn_part1 (F := F) main_v13 main_v16
-- ==== Kernel.lean ====
abbrev S256x16x56x56 : Shape := ⟨4, ![256, 16, 56, 56]⟩
abbrev S256x16x56x64 : Shape := ⟨4, ![256, 16, 56, 64]⟩
abbrev S1x56x56 : Shape := ⟨3, ![1, 56, 56]⟩
abbrev S4096x56x56 : Shape := ⟨3, ![4096, 56, 56]⟩
abbrev S4096x56x64 : Shape := ⟨3, ![4096, 56, 64]⟩
abbrev S128x56x56 : Shape := ⟨3, ![128, 56, 56]⟩
abbrev S128x56x64 : Shape := ⟨3, ![128, 56, 64]⟩
abbrev S32x56x56 : Shape := ⟨3, ![32, 56, 56]⟩
abbrev S32x56x64 : Shape := ⟨3, ![32, 56, 64]⟩
abbrev S32x56 : Shape := ⟨2, ![32, 56]⟩
abbrev S32x56x1 : Shape := ⟨3, ![32, 56, 1]⟩

abbrev nBuf : Space → Nat
  | .hbm => 9
  | .vmem => 9
  | .smem => 0
  | _ => 0

abbrev bufTy : (tb : Table) → Fin (tcTables nBuf tb) → BufTy
  | .hbm, ⟨0, _⟩ => ⟨S256x16x56x56, .f32⟩
  | .hbm, ⟨1, _⟩ => ⟨S256x16x56x56, .f32⟩
  | .hbm, ⟨2, _⟩ => ⟨S256x16x56x64, .f32⟩
  | .hbm, ⟨3, _⟩ => ⟨S1x56x56, .f32⟩
  | .hbm, ⟨4, _⟩ => ⟨S4096x56x56, .f32⟩
  | .hbm, ⟨5, _⟩ => ⟨S4096x56x56, .f32⟩
  | .hbm, ⟨6, _⟩ => ⟨S4096x56x64, .f32⟩
  | .hbm, ⟨7, _⟩ => ⟨S4096x56x64, .f32⟩
  | .hbm, ⟨8, _⟩ => ⟨S256x16x56x64, .f32⟩
  | .local _ .vmem, ⟨0, _⟩ => ⟨S128x56x56, .f32⟩
  | .local _ .vmem, ⟨1, _⟩ => ⟨S128x56x56, .f32⟩
  | .local _ .vmem, ⟨2, _⟩ => ⟨S128x56x56, .f32⟩
  | .local _ .vmem, ⟨3, _⟩ => ⟨S128x56x56, .f32⟩
  | .local _ .vmem, ⟨4, _⟩ => ⟨S128x56x64, .f32⟩
  | .local _ .vmem, ⟨5, _⟩ => ⟨S128x56x64, .f32⟩
  | .local _ .vmem, ⟨6, _⟩ => ⟨S1x56x56, .f32⟩
  | .local _ .vmem, ⟨7, _⟩ => ⟨S128x56x64, .f32⟩
  | .local _ .vmem, ⟨8, _⟩ => ⟨S128x56x64, .f32⟩
  | _, _ => ⟨S256x16x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c32_i32 : BitVec 32 := 32#32
  let v1 : BitVec 32 := Scalar.muli c0_i32 c32_i32
  v1
def k0_off1 (c0_i32 : BitVec 32) : Fin 3 → Nat :=
  let c32_i32 : BitVec 32 := 32#32
  let v1 : BitVec 32 := Scalar.muli c0_i32 c32_i32
  let v2 : BitVec 32 := v1
  let v3 : Index := Scalar.indexCast v2
  let c0_2 : Index := 0#32
  let c0_3 : Index := 0#32
  ![v3.toNat, 0, 0]
def k0_off2 (c0_i32 : BitVec 32) : Fin 3 → Nat :=
  let c32_i32 : BitVec 32 := 32#32
  let v1 : BitVec 32 := Scalar.muli c0_i32 c32_i32
  let v2 : BitVec 32 := v1
  let v9 : Index := Scalar.indexCast v2
  let c0_6 : Index := 0#32
  let c0_7 : Index := 0#32
  ![v9.toNat, 0, 0]
def k0_mult2 : BitVec 32 :=
  let c1_i32 : BitVec 32 := 1#32
  let c32_i32_13 : BitVec 32 := 32#32
  let v32 : BitVec 32 := Scalar.muli c1_i32 c32_i32_13
  v32
def k0_mult3 : BitVec 32 :=
  let c2_i32 : BitVec 32 := 2#32
  let c32_i32_26 : BitVec 32 := 32#32
  let v63 : BitVec 32 := Scalar.muli c2_i32 c32_i32_26
  v63
def k0_mult4 : BitVec 32 :=
  let c3_i32 : BitVec 32 := 3#32
  let c32_i32_39 : BitVec 32 := 32#32
  let v94 : BitVec 32 := Scalar.muli c3_i32 c32_i32_39
  v94
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x56x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x56x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x56x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256x16x56x56_S4096x56x56 : S256x16x56x56.ShapeCasts S4096x56x56
  shapeCasts_S256x16x56x64_S4096x56x64 : S256x16x56x64.ShapeCasts S4096x56x64
  inb_S1x56x56_S1x56x56_0_0_0 : ∀ a, (![0, 0, 0] : Fin 3 → Nat) a + S1x56x56.size a ≤ S1x56x56.size a
  h_S1x56x56 : 0 < S1x56x56.numel
  h_S32x56x56 : 0 < S32x56x56.numel
  shapeCasts_S32x56x56_S32x56x56 : S32x56x56.ShapeCasts S32x56x56
  h_S32x56x64 : 0 < S32x56x64.numel
  shapeCasts_S32x56x64_S32x56x64 : S32x56x64.ShapeCasts S32x56x64
  transposes_S32x56x56_p0_2_1_S32x56x56 : S32x56x56.Transposes [0, 2, 1] S32x56x56
  broadcasts_S1x56x56_S32x56x56 : S1x56x56.Broadcasts S32x56x56
  reduces_S32x56x56_S32x56 : S32x56x56.Reduces [2] S32x56
  shapeCasts_S32x56_S32x56x1 : S32x56.ShapeCasts S32x56x1
  broadcasts_S32x56x1_S32x56x56 : S32x56x1.Broadcasts S32x56x56
  bitsLt_bf16_f32 : FTy.bits .bf16 < FTy.bits .f32
  shapeCasts_S4096x56x64_S256x16x56x64 : S4096x56x64.ShapeCasts S256x16x56x64
  dot_S32x56x56_S32x56x64_S32x56x64_2_1_1_2_0_0_wf : DotDims.WF S32x56x56 S32x56x64 S32x56x64 [2] [1] [1] [2] [0] [0]
  hrank0 : 0 < grid0.rank
  k0_mult1_dvd : 32 ∣ k0_mult1.toNat
  k0_off1_inb : ∀ (r : Fin 4), ∀ a, (k0_off1 (BitVec.ofNat 32 r.val)) a + S32x56x56.size a ≤ S128x56x56.size a
  k0_off2_inb : ∀ (r : Fin 4), ∀ a, (k0_off2 (BitVec.ofNat 32 r.val)) a + S32x56x64.size a ≤ S128x56x64.size a
  k0_mult2_dvd : 32 ∣ k0_mult2.toNat
  k0_mult3_dvd : 32 ∣ k0_mult3.toNat
  k0_mult4_dvd : 32 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x56x56.size a ≤ S4096x56x56.size a
  hwx0_0 : ∀ i : grid0.Coords, EltTy.bits .f32 = 32 ∨ (Rect.block (s := S4096x56x56) S128x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x56x56.size a ≤ S4096x56x56.size a
  hwx0_1 : ∀ i : grid0.Coords, EltTy.bits .f32 = 32 ∨ (Rect.block (s := S4096x56x56) S128x56x56.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x56x64.size a ≤ S4096x56x64.size a
  hwx0_2 : ∀ i : grid0.Coords, EltTy.bits .f32 = 32 ∨ (Rect.block (s := S4096x56x64) S128x56x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x56x56.size a ≤ S1x56x56.size a
  hwx0_3 : ∀ i : grid0.Coords, EltTy.bits .f32 = 32 ∨ (Rect.block (s := S1x56x56) S1x56x56.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x56x64.size a ≤ S4096x56x64.size a
  hwx0_4 : ∀ i : grid0.Coords, EltTy.bits .f32 = 32 ∨ (Rect.block (s := S4096x56x64) S128x56x64.size (cc0_transform_4 i) (hinb0_4 i)).WholeWords (EltTy.packing .f32)

variable [Facts₀]

def dot_S32x56x56_S32x56x64_S32x56x64_2_1_1_2_0_0 : DotDims S32x56x56 S32x56x64 S32x56x64 where
  lhsContracting := [2]
  rhsContracting := [1]
  lhsNonContracting := [1]
  rhsNonContracting := [2]
  lhsBatch := [0]
  rhsBatch := [0]
  wf := dot_S32x56x56_S32x56x64_S32x56x64_2_1_1_2_0_0_wf

abbrev win0_0 : Pipeline.Window sig grid0 :=
  Pipeline.Window.ofSpec (Memref.whole main_v0) S128x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x56x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x56x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x56x56.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x56x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x16x56x56 : Shape := ⟨4, ![256, 16, 56, 56]⟩
abbrev S256x16x56x64 : Shape := ⟨4, ![256, 16, 56, 64]⟩
abbrev S1x56x56 : Shape := ⟨3, ![1, 56, 56]⟩
abbrev S_ : Shape := ⟨0, ![]⟩
abbrev S1x1x56x56 : Shape := ⟨4, ![1, 1, 56, 56]⟩
abbrev S256x16x56 : Shape := ⟨3, ![256, 16, 56]⟩
abbrev S256x16x56x1 : Shape := ⟨4, ![256, 16, 56, 1]⟩

abbrev nBuf : Space → Nat
  | .hbm => 27
  | .vmem => 0
  | .smem => 0
  | _ => 0

abbrev bufTy : (tb : Table) → Fin (tcTables nBuf tb) → BufTy
  | .hbm, ⟨0, _⟩ => ⟨S256x16x56x56, .f32⟩
  | .hbm, ⟨1, _⟩ => ⟨S256x16x56x56, .f32⟩
  | .hbm, ⟨2, _⟩ => ⟨S256x16x56x64, .f32⟩
  | .hbm, ⟨3, _⟩ => ⟨S1x56x56, .f32⟩
  | .hbm, ⟨4, _⟩ => ⟨S256x16x56x56, .f32⟩
  | .hbm, ⟨5, _⟩ => ⟨S_, .f32⟩
  | .hbm, ⟨6, _⟩ => ⟨S256x16x56x56, .f32⟩
  | .hbm, ⟨7, _⟩ => ⟨S256x16x56x56, .f32⟩
  | .hbm, ⟨8, _⟩ => ⟨S256x16x56x56, .f32⟩
  | .hbm, ⟨9, _⟩ => ⟨S1x1x56x56, .f32⟩
  | .hbm, ⟨10, _⟩ => ⟨S256x16x56x56, .f32⟩
  | .hbm, ⟨11, _⟩ => ⟨S256x16x56x56, .f32⟩
  | .hbm, ⟨12, _⟩ => ⟨S_, .f32⟩
  | .hbm, ⟨13, _⟩ => ⟨S256x16x56, .f32⟩
  | .hbm, ⟨14, _⟩ => ⟨S_, .f32⟩
  | .hbm, ⟨15, _⟩ => ⟨S256x16x56, .f32⟩
  | .hbm, ⟨16, _⟩ => ⟨S256x16x56, .f32⟩
  | .hbm, ⟨17, _⟩ => ⟨S256x16x56x1, .f32⟩
  | .hbm, ⟨18, _⟩ => ⟨S256x16x56x56, .f32⟩
  | .hbm, ⟨19, _⟩ => ⟨S256x16x56x56, .f32⟩
  | .hbm, ⟨20, _⟩ => ⟨S256x16x56x56, .f32⟩
  | .hbm, ⟨21, _⟩ => ⟨S_, .f32⟩
  | .hbm, ⟨22, _⟩ => ⟨S256x16x56, .f32⟩
  | .hbm, ⟨23, _⟩ => ⟨S256x16x56x1, .f32⟩
  | .hbm, ⟨24, _⟩ => ⟨S256x16x56x56, .f32⟩
  | .hbm, ⟨25, _⟩ => ⟨S256x16x56x56, .f32⟩
  | .hbm, ⟨26, _⟩ => ⟨S256x16x56x64, .f32⟩
  | _, _ => ⟨S256x16x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S256x16x56x56_S256x16x56x56_0_1_3_2 : S256x16x56x56.Transposes [0, 1, 3, 2] S256x16x56x56
  bcast_S_S256x16x56x56 : S_.BroadcastsInDim S256x16x56x56 (![] : Fin 0 → Fin S256x16x56x56.rank)
  bcast_S1x56x56_S1x1x56x56_1_2_3 : S1x56x56.BroadcastsInDim S1x1x56x56 (![1, 2, 3] : Fin 3 → Fin S1x1x56x56.rank)
  bcast_S1x1x56x56_S256x16x56x56_0_1_2_3 : S1x1x56x56.BroadcastsInDim S256x16x56x56 (![0, 1, 2, 3] : Fin 4 → Fin S256x16x56x56.rank)
  reducesTo_S256x16x56x56_S256x16x56_d3 : S256x16x56x56.ReducesTo [3] S256x16x56
  h_S_ : 0 < S_.numel
  bcast_S_S256x16x56 : S_.BroadcastsInDim S256x16x56 (![] : Fin 0 → Fin S256x16x56.rank)
  bcast_S256x16x56_S256x16x56x1_0_1_2 : S256x16x56.BroadcastsInDim S256x16x56x1 (![0, 1, 2] : Fin 3 → Fin S256x16x56x1.rank)
  bcast_S256x16x56x1_S256x16x56x56_0_1_2_3 : S256x16x56x1.BroadcastsInDim S256x16x56x56 (![0, 1, 2, 3] : Fin 4 → Fin S256x16x56x56.rank)
  dot_S256x16x56x56_S256x16x56x64_S256x16x56x64_3_2_2_3_01_01_wf : DotDims.WF S256x16x56x56 S256x16x56x64 S256x16x56x64 [3] [2] [2] [3] [0, 1] [0, 1]

variable [Facts₀]

def dot_S256x16x56x56_S256x16x56x64_S256x16x56x64_3_2_2_3_01_01 : DotDims S256x16x56x56 S256x16x56x64 S256x16x56x64 where
  lhsContracting := [3]
  rhsContracting := [2]
  lhsNonContracting := [2]
  rhsNonContracting := [3]
  lhsBatch := [0, 1]
  rhsBatch := [0, 1]
  wf := dot_S256x16x56x56_S256x16x56x64_S256x16x56x64_3_2_2_3_01_01_wf

class Facts : Prop extends Facts₀ where

variable [Facts]
-- ==== Proof.Softmax.lean ====
/-
  One row of masked attention, on the extended reals.

  For a row of scores `s : Fin 56 → EReal` the row's maximum is the fold of `max` from −∞ over its entries; each entry is
  shifted by that maximum and exponentiated; the weights are those exponentials divided by their sum; and the row's
  result against a column `v` of values is the weighted sum `∑ k, weight k · v k`. A score is the query's entry plus the
  key's transposed entry times the scale constant plus the mask's entry. Both programs compute exactly this, row by
  row; nothing here needs a finiteness assumption, since the same expression stands on both sides.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The row's maximum: the fold of `max`, from the word that denotes −∞, over the row. -/
def rowMax (s : Fin 56 → EReal) : EReal :=
  (Finset.univ : Finset (Fin 56)).fold max (Ideal.ofBits .f32 0xFF800000#32) s

/-- An entry shifted by the row's maximum and exponentiated. -/
def rowExp (s : Fin 56 → EReal) (k : Fin 56) : EReal := Ideal.exp (s k - rowMax s)

/-- The softmax weight of entry `k`: its exponential over the sum of the row's exponentials. -/
def rowWeight (s : Fin 56 → EReal) (k : Fin 56) : EReal := Ideal.div (rowExp s k) (∑ j : Fin 56, rowExp s j)

/-- The row's result against a column of values: the weighted sum. -/
def rowOut (s v : Fin 56 → EReal) : EReal := ∑ k : Fin 56, rowWeight s k * v k

/-- The score of entry `k`: query entry + key entry (already transposed) × scale + mask entry. -/
def score (qrow kcol mrow : Fin 56 → EReal) (k : Fin 56) : EReal :=
  qrow k + kcol k * Ideal.ofBits .f32 0x3E08D677#32 + mrow k

/-- The batched form over flat arrays `[N, 56, 56]`, `[N, 56, 56]`, `[N, 56, 64]` and a mask `[1, 56, 56]`: at `(p, q, d)`
    the row `q` of problem `p` against column `d` of its values. -/
def flatOut {N : Nat} (y0 y1 : (⟨3, ![N, 56, 56]⟩ : Shape).Idx → EReal) (y2 : (⟨3, ![N, 56, 64]⟩ : Shape).Idx → EReal)
    (y3 : (⟨3, ![1, 56, 56]⟩ : Shape).Idx → EReal) (j : (⟨3, ![N, 56, 64]⟩ : Shape).Idx) : EReal :=
  rowOut (score (fun k => y0 (ix3 (j 0) (j 1) k)) (fun k => y1 (ix3 (j 0) k (j 1))) (fun k => y3 (ix3 (0 : Fin 1) (j 1) k)))
    (fun k => y2 (ix3 (j 0) k (j 2)))

/-- The same over arrays `[256, 16, 56, ·]`: at `(b, h, q, d)`. -/
def headOut (x0 x1 : (⟨4, ![256, 16, 56, 56]⟩ : Shape).Idx → EReal) (x2 : (⟨4, ![256, 16, 56, 64]⟩ : Shape).Idx → EReal)
    (x3 : (⟨3, ![1, 56, 56]⟩ : Shape).Idx → EReal) (i : (⟨4, ![256, 16, 56, 64]⟩ : Shape).Idx) : EReal :=
  rowOut (score (fun k => x0 (ix4 (i 0) (i 1) (i 2) k)) (fun k => x1 (ix4 (i 0) (i 1) k (i 2)))
      (fun k => x3 (ix3 (0 : Fin 1) (i 2) k)))
    (fun k => x2 (ix4 (i 0) (i 1) k (i 3)))

end Cert.Attn

end
-- ==== Proof.ChunkValue.lean ====
/-
  One chunk of the kernel body, read at an index.

  The body handles its block of 128 problems in four chunks of 32. Each chunk's stored value is the same function of
  that chunk's queries `q`, keys `k`, values `v` (32 problems each) and of the mask: the scores
  `q + kᵀ · scale + mask`, each row shifted by its maximum and exponentiated, divided by the row's sum, and multiplied into
  `v` problem by problem. The four stores spell this with the arithmetic cut at different places; unfolded they are one term.
  Read at `(n, r, d)` the chunk's value is row `r` of problem `n` against column `d` of its values (`Attn.rowOut`).
-/
import proofs.«162098_j6725918786261_2_alg».proof.Proof.Gen.KernelIdeal.Skeleton
import proofs.«162098_j6725918786261_2_alg».proof.Proof.Softmax
import Idealize.ShloMosaic.PureOps.Ideal.Laws
import Idealize.ShloMosaic.Lib.ValueIdx
import Idealize.ShloMosaic.Lib.Pipeline.Value
import Idealize.ShloMosaic.Lib.ValueLayout

noncomputable section

namespace Cert.Attn.Chunk

open Idealize.ShloMosaic Idealize.ShloMosaic.ValueIdx Cert.KernelIdeal Cert.KernelIdeal.Gen Cert.Attn

/-! ## The four stores hold one function of their chunk -/

section AnyFloat
variable {F : FTy → Type} [FloatOps F]

/-- The second chunk's store, with its query load cast beforehand, is the first chunk's term. -/
theorem pay4_eq (v0 : Vec F S1x56x56 .f32) (q k : Vec F S32x56x56 .f32) (v : Vec F S32x56x64 .f32) :
    k0_pay4 v0 (k0_pay3 q) k v = k0_pay2 v0 q k v := rfl

/-- The third chunk's store, with the query and value loads cast and the key load transposed and scaled beforehand. -/
theorem pay8_eq (v0 : Vec F S1x56x56 .f32) (q k : Vec F S32x56x56 .f32) (v : Vec F S32x56x64 .f32) :
    k0_pay8 v0 (k0_pay5 q) (k0_pay6 v) (k0_pay7 k) = k0_pay2 v0 q k v := rfl

/-- The fourth chunk's store: the product of the weights computed beforehand with the value load cast beforehand. -/
theorem pay1_eq (v0 : Vec F S1x56x56 .f32) (q k : Vec F S32x56x56 .f32) (v : Vec F S32x56x64 .f32) :
    k0_pay1 (k0_pay9 v) (k0_pay10 v0 q k) = k0_pay2 v0 q k v := rfl

end AnyFloat

/-! ## The chunk's stages, on the extended reals -/

/-- The scores: `q + kᵀ · scale + mask`, the mask broadcast over the 32 problems. -/
def scores (v0 : Vec Ideal S1x56x56 .f32) (qv kv : Vec Ideal S32x56x56 .f32) : FVec Ideal S32x56x56 .f32 :=
  addf (addf (shapeCast S32x56x56 qv shapeCasts_S32x56x56_S32x56x56)
      (mulf (transpose S32x56x56 [0, 2, 1] (shapeCast S32x56x56 kv shapeCasts_S32x56x56_S32x56x56) transposes_S32x56x56_p0_2_1_S32x56x56)
        (broadcast S32x56x56 (Scalar.ofBits (F := Ideal) .f32 0x3E08D677#32))))
    (broadcastTo S32x56x56 v0 broadcasts_S1x56x56_S32x56x56)

/-- Each row's maximum. -/
def rmax (s : FVec Ideal S32x56x56 .f32) : FVec Ideal S32x56 .f32 :=
  multiReduction .maximumf [2] S32x56 s 0xFF800000#32 reduces_S32x56x56_S32x56 (.inl rfl) rfl

/-- A per-row quantity repeated along its row. -/
def col (r : FVec Ideal S32x56 .f32) : FVec Ideal S32x56x56 .f32 :=
  broadcastTo S32x56x56 (shapeCast S32x56x1 r shapeCasts_S32x56_S32x56x1) broadcasts_S32x56x1_S32x56x56

/-- The exponentials of the scores shifted by their row's maximum. -/
def expo (s : FVec Ideal S32x56x56 .f32) : FVec Ideal S32x56x56 .f32 := exp (subf s (col (rmax s)))

/-- Each row's sum. -/
def rsum (e : FVec Ideal S32x56x56 .f32) : FVec Ideal S32x56 .f32 :=
  multiReduction .add [2] S32x56 e 0x00000000#32 reduces_S32x56x56_S32x56 (.inl rfl) rfl

/-- The exponentials over their row's sum. -/
def weights (e : FVec Ideal S32x56x56 .f32) : FVec Ideal S32x56x56 .f32 := divf e (col (rsum e))

/-- The chunk's store is the product of the weights with the values, problem by problem, into a zero accumulator
    (the two changes of float format are the identity on the extended reals). -/
theorem pay2_eq (v0 : Vec Ideal S1x56x56 .f32) (qv kv : Vec Ideal S32x56x56 .f32) (vv : Vec Ideal S32x56x64 .f32) :
    k0_pay2 (F := Ideal) v0 qv kv vv
      = matmul dot_S32x56x56_S32x56x64_S32x56x64_2_1_1_2_0_0 none
          (truncf .bf16 (weights (expo (scores v0 qv kv))) bitsLt_bf16_f32)
          (truncf .bf16 (shapeCast S32x56x64 vv shapeCasts_S32x56x64_S32x56x64 : FVec Ideal S32x56x64 .f32) bitsLt_bf16_f32)
          (constant S32x56x64 .f32 0x00000000#32) := rfl

/-! ## Layout operations of these shapes at an index -/

section Layout
variable {α : Type}

/-- The mask `[1, 56, 56]` broadcast over 32 problems reads its own `(0, r, k)`. -/
theorem bcast_mask (x : S1x56x56.Idx → α) (h : S1x56x56.Broadcasts S32x56x56) (n : Fin 32) (r k : Fin 56) :
    broadcastTo S32x56x56 x h (ix3 n r k) = x (ix3 (0 : Fin 1) r k) :=
  broadcastTo_apply x h _ _ fun a => match a with
    | ⟨0, _⟩ => by show 0 = if (1 : Nat) = 1 then 0 else n.val; rw [if_pos rfl]
    | ⟨1, _⟩ => by show r.val = if (56 : Nat) = 1 then 0 else r.val; rw [if_neg (by decide)]
    | ⟨2, _⟩ => by show k.val = if (56 : Nat) = 1 then 0 else k.val; rw [if_neg (by decide)]

/-- A column `[32, 56, 1]` broadcast along its rows reads its own `(n, r, 0)`. -/
theorem bcast_col (x : S32x56x1.Idx → α) (h : S32x56x1.Broadcasts S32x56x56) (n : Fin 32) (r k : Fin 56) :
    broadcastTo S32x56x56 x h (ix3 n r k) = x (ix3 n r (0 : Fin 1)) :=
  broadcastTo_apply x h _ _ fun a => match a with
    | ⟨0, _⟩ => by show n.val = if (32 : Nat) = 1 then 0 else n.val; rw [if_neg (by decide)]
    | ⟨1, _⟩ => by show r.val = if (56 : Nat) = 1 then 0 else r.val; rw [if_neg (by decide)]
    | ⟨2, _⟩ => by show 0 = if (1 : Nat) = 1 then 0 else k.val; rw [if_pos rfl]

/-- A `[32, 56]` array given a trailing unit axis reads, at `(n, r, 0)`, its own `(n, r)`. -/
theorem cast_col (x : S32x56.Idx → α) (h : S32x56.ShapeCasts S32x56x1) (n : Fin 32) (r : Fin 56) (u : Fin 1) :
    shapeCast S32x56x1 x h (ix3 n r u) = x (ix2 n r) :=
  shapeCast_apply x h _ _ (by
    have hu : u.val = 0 := by omega
    rw [Shape.rowMajor_val_two, Shape.rowMajor_val_three]
    show n.val * 56 + r.val = (n.val * 56 + r.val) * 1 + u.val
    omega)

end Layout

/-- The row `(n, r)` with entry `k` inserted on the reduced axis is `(n, r, k)`. -/
theorem lift_eq (n : Fin 32) (r k : Fin 56) : reduces_S32x56x56_S32x56.lift (ix2 n r) k = ix3 n r k :=
  funext fun a => Fin.ext (by match a with | ⟨0, _⟩ => rfl | ⟨1, _⟩ => rfl | ⟨2, _⟩ => rfl)

/-! ## The stages at an index -/

theorem col_apply (x : FVec Ideal S32x56 .f32) (n : Fin 32) (r k : Fin 56) : col x (ix3 n r k) = x (ix2 n r) := by
  unfold col
  rw [bcast_col, cast_col]

theorem scores_apply (v0 : Vec Ideal S1x56x56 .f32) (qv kv : Vec Ideal S32x56x56 .f32) (n : Fin 32) (r k : Fin 56) :
    scores v0 qv kv (ix3 n r k)
      = score (fun j => qv (ix3 n r j)) (fun j => kv (ix3 n j r)) (fun j => v0 (ix3 (0 : Fin 1) r j)) k := by
  unfold scores score
  rw [addf_apply, addf_apply, mulf_apply, shapeCast_self, shapeCast_self, transpose_ix3_021_apply, bcast_mask]
  rfl

theorem rmax_apply (s : FVec Ideal S32x56x56 .f32) (n : Fin 32) (r : Fin 56) :
    rmax s (ix2 n r) = rowMax (fun k => s (ix3 n r k)) := by
  refine (Ideal.multiReduction_maximumf_single s 0xFF800000#32 reduces_S32x56x56_S32x56 (.inl rfl) rfl (ix2 n r)).trans ?_
  unfold rowMax
  exact congrArg (fun f => (Finset.univ : Finset (Fin 56)).fold max (Ideal.ofBits .f32 0xFF800000#32) f)
    (funext fun k => congrArg s (lift_eq n r k))

theorem rsum_apply (e : FVec Ideal S32x56x56 .f32) (n : Fin 32) (r : Fin 56) :
    rsum e (ix2 n r) = ∑ k : Fin 56, e (ix3 n r k) :=
  (Ideal.multiReduction_add_single e 0x00000000#32 reduces_S32x56x56_S32x56 (.inl rfl) rfl (ix2 n r)).trans
    (Finset.sum_congr rfl fun k _ => congrArg e (lift_eq n r k))

theorem expo_apply (s : FVec Ideal S32x56x56 .f32) (n : Fin 32) (r k : Fin 56) :
    expo s (ix3 n r k) = rowExp (fun j => s (ix3 n r j)) k := by
  unfold expo rowExp
  show Ideal.exp (s (ix3 n r k) - col (rmax s) (ix3 n r k)) = _
  rw [col_apply, rmax_apply]

theorem weights_apply (e : FVec Ideal S32x56x56 .f32) (n : Fin 32) (r k : Fin 56) :
    weights e (ix3 n r k) = Ideal.div (e (ix3 n r k)) (∑ j : Fin 56, e (ix3 n r j)) := by
  unfold weights
  show Ideal.div (e (ix3 n r k)) (col (rsum e) (ix3 n r k)) = _
  rw [col_apply, rsum_apply]

/-- The exponentials of a chunk's scores, at `(n, r, k)`. -/
theorem expo_scores_apply (v0 : Vec Ideal S1x56x56 .f32) (qv kv : Vec Ideal S32x56x56 .f32) (n : Fin 32) (r k : Fin 56) :
    expo (scores v0 qv kv) (ix3 n r k)
      = rowExp (score (fun j => qv (ix3 n r j)) (fun j => kv (ix3 n j r)) (fun j => v0 (ix3 (0 : Fin 1) r j))) k := by
  rw [expo_apply]
  exact congrArg (fun s => rowExp s k) (funext fun j => scores_apply v0 qv kv n r j)

/-- The softmax weights of a chunk, at `(n, r, k)`. -/
theorem weights_scores_apply (v0 : Vec Ideal S1x56x56 .f32) (qv kv : Vec Ideal S32x56x56 .f32) (n : Fin 32) (r k : Fin 56) :
    weights (expo (scores v0 qv kv)) (ix3 n r k)
      = rowWeight (score (fun j => qv (ix3 n r j)) (fun j => kv (ix3 n j r)) (fun j => v0 (ix3 (0 : Fin 1) r j))) k := by
  rw [weights_apply, expo_scores_apply]
  unfold rowWeight
  exact congrArg (Ideal.div _) (Finset.sum_congr rfl fun j _ => expo_scores_apply v0 qv kv n r j)

/-! ## The product, problem by problem -/

abbrev D := dot_S32x56x56_S32x56x64_S32x56x64_2_1_1_2_0_0

theorem lhs_0 (i : S32x56x64.Idx) (c : D.contr.Idx) : (D.lhsIdx i c 0).val = (i 0).val := by
  unfold DotDims.lhsIdx
  rw [dif_pos (show (0 : Fin S32x56x56.rank) ∈ D.lhsBatch by decide)]
  rfl
theorem lhs_1 (i : S32x56x64.Idx) (c : D.contr.Idx) : (D.lhsIdx i c 1).val = (i 1).val := by
  unfold DotDims.lhsIdx
  rw [dif_neg (show ¬(1 : Fin S32x56x56.rank) ∈ D.lhsBatch by decide), dif_pos (show (1 : Fin S32x56x56.rank) ∈ D.lhsNonContracting by decide)]
  rfl
theorem lhs_2 (i : S32x56x64.Idx) (c : D.contr.Idx) : (D.lhsIdx i c 2).val = (c ⟨0, by decide⟩).val :=
  D.lhsIdx_val_of_single rfl i c
theorem rhs_0 (i : S32x56x64.Idx) (c : D.contr.Idx) : (D.rhsIdx i c 0).val = (i 0).val := by
  unfold DotDims.rhsIdx
  rw [dif_pos (show (0 : Fin S32x56x64.rank) ∈ D.rhsBatch by decide)]
  rfl
theorem rhs_1 (i : S32x56x64.Idx) (c : D.contr.Idx) : (D.rhsIdx i c 1).val = (c ⟨0, by decide⟩).val :=
  D.rhsIdx_val_of_single rfl i c
theorem rhs_2 (i : S32x56x64.Idx) (c : D.contr.Idx) : (D.rhsIdx i c 2).val = (i 2).val := by
  unfold DotDims.rhsIdx
  rw [dif_neg (show ¬(2 : Fin S32x56x64.rank) ∈ D.rhsBatch by decide), dif_pos (show (2 : Fin S32x56x64.rank) ∈ D.rhsNonContracting by decide)]
  rfl

/-- A chunk's stored value at `(n, r, d)`: row `r` of problem `n` against column `d` of its values. -/
theorem pay2_apply (v0 : Vec Ideal S1x56x56 .f32) (qv kv : Vec Ideal S32x56x56 .f32) (vv : Vec Ideal S32x56x64 .f32)
    (n : Fin 32) (r : Fin 56) (d : Fin 64) :
    k0_pay2 (F := Ideal) v0 qv kv vv (ix3 n r d)
      = rowOut (score (fun j => qv (ix3 n r j)) (fun j => kv (ix3 n j r)) (fun j => v0 (ix3 (0 : Fin 1) r j)))
          (fun k => vv (ix3 n k d)) := by
  rw [pay2_eq]
  refine (Ideal.matmul_constant_zero_apply D none _ _ (ix3 n r d)).trans ?_
  rw [← Equiv.sum_comp (contrEquiv1 D 56 rfl rfl).symm]
  unfold rowOut
  refine Finset.sum_congr rfl fun k _ => ?_
  have hk := contrEquiv1_symm_val D 56 rfl rfl k
  have el : D.lhsIdx (ix3 n r d) ((contrEquiv1 D 56 rfl rfl).symm k) = ix3 n r k := funext fun a => Fin.ext (by
    match a with
    | ⟨0, _⟩ => exact lhs_0 _ _
    | ⟨1, _⟩ => exact lhs_1 _ _
    | ⟨2, _⟩ => exact (lhs_2 _ _).trans hk)
  have er : D.rhsIdx (ix3 n r d) ((contrEquiv1 D 56 rfl rfl).symm k) = ix3 n k d := funext fun a => Fin.ext (by
    match a with
    | ⟨0, _⟩ => exact rhs_0 _ _
    | ⟨1, _⟩ => exact (rhs_1 _ _).trans hk
    | ⟨2, _⟩ => exact rhs_2 _ _)
  rw [el, er]
  show weights (expo (scores v0 qv kv)) (ix3 n r k) * shapeCast S32x56x64 vv shapeCasts_S32x56x64_S32x56x64 (ix3 n k d) = _
  rw [weights_scores_apply, shapeCast_self]

end Cert.Attn.Chunk

end
-- ==== Proof.BlockValue.lean ====
/-
  What the body leaves in the output's staging buffer at a grid point.

  The body fills the `[128, 56, 64]` output block by four stores of `[32, 56, 64]` rows, at row offsets 0, 32, 64 and 96.
  The store at offset `o` holds the chunk function (`ChunkValue`) of the rows `o … o + 31` of the query, key and value blocks
  and of the mask, so at its own index `(n, r, d)` it is row `r` of problem `o + n` against column `d` of that problem's
  values: every store is a block of ONE function of the whole block, `Attn.flatOut` of the four input blocks. Stores
  that agree with one function and cover the buffer leave that function in it.
-/
import proofs.«162098_j6725918786261_2_alg».proof.Proof.Gen.KernelIdeal.Frame
import proofs.«162098_j6725918786261_2_alg».proof.Proof.ChunkValue
import Idealize.ShloMosaic.Lib.Writes
import Idealize.ShloMosaic.Lib.Tactic

set_option maxRecDepth 16384

noncomputable section

namespace Cert.Attn.Block

open Idealize.ShloMosaic Idealize.ShloMosaic.ValueIdx Idealize.ShloMosaic.TcCoe Idealize.ShloMosaic.Tactic Idealize.SL.Sem
open Cert.KernelIdeal Cert.KernelIdeal.Gen Cert.Attn Cert.Attn.Chunk

/-- A load of the rows `o … o + a − 1` of a whole `[A, B, C]` buffer holding `x`, at `(n, r, k)`, is `x` at `(o + n, r, k)`. -/
theorem load_rows {A a B C : Nat} (arg : Memref sig .tc .vmem ⟨3, ![A, B, C]⟩ .f32) (harg : arg.IsWhole)
    (x : (⟨3, ![A, B, C]⟩ : Shape).Idx → Elt Ideal .f32) (o : Nat)
    (inb : ∀ i, (![o, 0, 0] : Fin 3 → Nat) i + (![a, B, C] : Fin 3 → Nat) i ≤ (⟨3, ![A, B, C]⟩ : Shape).size i)
    (n : Fin a) (r : Fin B) (k : Fin C) (N : Fin A) (hN : N.val = o + n.val) :
    View.readAt (Elt Ideal) arg.view (Rect.unit (s := ⟨3, ![A, B, C]⟩) ![o, 0, 0] ![a, B, C] inb).toLoadRect (harg.unread x) (ix3 n r k)
      = x (ix3 N r k) := by
  rw [View.readAt_apply, harg.read_unread]
  refine congrArg x (funext fun i => Fin.ext ?_)
  match i with
  | ⟨0, _⟩ => show o + 1 * n.val = N.val; omega
  | ⟨1, _⟩ => show 0 + 1 * r.val = r.val; omega
  | ⟨2, _⟩ => show 0 + 1 * k.val = k.val; omega

/-- The store at row offset `o`: the chunk function of the loads of rows `o … o + 31`, at its own index `y`, is the
    block function of the four input blocks at `y` placed in the block. -/
theorem piece_apply (arg1 : Memref sig .tc .vmem S128x56x56 .f32) (harg1 : arg1.IsWhole) (arg2 : Memref sig .tc .vmem S128x56x56 .f32) (harg2 : arg2.IsWhole) (arg3 : Memref sig .tc .vmem S128x56x64 .f32) (harg3 : arg3.IsWhole) (arg4 : Memref sig .tc .vmem S1x56x56 .f32) (harg4 : arg4.IsWhole)
    (x0 x1 : Vec Ideal S128x56x56 .f32) (x2 : Vec Ideal S128x56x64 .f32) (x3 : Vec Ideal S1x56x56 .f32) (o : Nat)
    (inbq : ∀ i, (![o, 0, 0] : Fin 3 → Nat) i + S32x56x56.size i ≤ S128x56x56.size i)
    (inbv : ∀ i, (![o, 0, 0] : Fin 3 → Nat) i + S32x56x64.size i ≤ S128x56x64.size i)
    (inbm : ∀ i, (![0, 0, 0] : Fin 3 → Nat) i + S1x56x56.size i ≤ S1x56x56.size i)
    (y : S32x56x64.Idx) :
    k0_pay2 (F := Ideal)
        (View.readAt (Elt Ideal) arg4.view (Rect.unit (s := S1x56x56) ![0, 0, 0] S1x56x56.size inbm).toLoadRect (harg4.unread x3))
        (View.readAt (Elt Ideal) arg1.view (Rect.unit (s := S128x56x56) ![o, 0, 0] S32x56x56.size inbq).toLoadRect (harg1.unread x0))
        (View.readAt (Elt Ideal) arg2.view (Rect.unit (s := S128x56x56) ![o, 0, 0] S32x56x56.size inbq).toLoadRect (harg2.unread x1))
        (View.readAt (Elt Ideal) arg3.view (Rect.unit (s := S128x56x64) ![o, 0, 0] S32x56x64.size inbv).toLoadRect (harg3.unread x2)) y
      = flatOut x0 x1 x2 x3 ((Rect.unit (s := S128x56x64) ![o, 0, 0] S32x56x64.size inbv).emb y) := by
  obtain ⟨n, r, d, rfl⟩ : ∃ (n : Fin 32) (r : Fin 56) (d : Fin 64), y = ix3 n r d := ⟨y 0, y 1, y 2, eq_ix3 y⟩
  have ho : o + 32 ≤ 128 := inbv 0
  have hE : (Rect.unit (s := S128x56x64) ![o, 0, 0] S32x56x64.size inbv).emb (ix3 n r d)
      = ix3 (⟨o + n.val, by omega⟩ : Fin 128) r d :=
    funext fun i => Fin.ext (by
      match i with
      | ⟨0, _⟩ => show o + 1 * n.val = o + n.val; omega
      | ⟨1, _⟩ => show 0 + 1 * r.val = r.val; omega
      | ⟨2, _⟩ => show 0 + 1 * d.val = d.val; omega)
  rw [pay2_apply, hE]
  have e0 : (fun j => View.readAt (Elt Ideal) arg1.view (Rect.unit (s := S128x56x56) ![o, 0, 0] S32x56x56.size inbq).toLoadRect (harg1.unread x0) (ix3 n r j))
      = fun j => x0 (ix3 (⟨o + n.val, by omega⟩ : Fin 128) r j) :=
    funext fun j => load_rows arg1 harg1 x0 o inbq n r j _ rfl
  have e1 : (fun j => View.readAt (Elt Ideal) arg2.view (Rect.unit (s := S128x56x56) ![o, 0, 0] S32x56x56.size inbq).toLoadRect (harg2.unread x1) (ix3 n j r))
      = fun j => x1 (ix3 (⟨o + n.val, by omega⟩ : Fin 128) j r) :=
    funext fun j => load_rows arg2 harg2 x1 o inbq n j r _ rfl
  have e2 : (fun k => View.readAt (Elt Ideal) arg3.view (Rect.unit (s := S128x56x64) ![o, 0, 0] S32x56x64.size inbv).toLoadRect (harg3.unread x2) (ix3 n k d))
      = fun k => x2 (ix3 (⟨o + n.val, by omega⟩ : Fin 128) k d) :=
    funext fun k => load_rows arg3 harg3 x2 o inbv n k d _ rfl
  have e3 : (fun j => View.readAt (Elt Ideal) arg4.view (Rect.unit (s := S1x56x56) ![0, 0, 0] S1x56x56.size inbm).toLoadRect (harg4.unread x3) (ix3 (0 : Fin 1) r j))
      = fun j => x3 (ix3 (0 : Fin 1) r j) :=
    funext fun j => load_rows arg4 harg4 x3 0 inbm (0 : Fin 1) r j _ (by simp)
  exact congr (congrArg rowOut (congr (congr (congrArg score e0) e1) e3)) e2

/-- What the body leaves in the output's staging buffer: the block function of the four input blocks. -/
theorem block_eq (c : Dev nD) (i : grid0.Coords) (arg1 : Memref sig .tc .vmem S128x56x56 .f32) (harg1 : arg1.IsWhole) (arg2 : Memref sig .tc .vmem S128x56x56 .f32) (harg2 : arg2.IsWhole) (arg3 : Memref sig .tc .vmem S128x56x64 .f32) (harg3 : arg3.IsWhole) (arg4 : Memref sig .tc .vmem S1x56x56 .f32) (harg4 : arg4.IsWhole) (arg5 : Memref sig .tc .vmem S128x56x64 .f32) (harg5 : arg5.IsWhole)
    (x0 x1 : Vec Ideal S128x56x56 .f32) (x2 : Vec Ideal S128x56x64 .f32) (x3 : Vec Ideal S1x56x56 .f32) :
    out0_A_4 (F := Ideal) c i arg1 harg1 arg2 harg2 arg3 harg3 arg4 harg4 arg5 harg5 x0 x1 x2 x3 = flatOut x0 x1 x2 x3 := by
  funext y
  unfold out0_A_4
  refine View.read_writes_apply_of_pieces VO0_4 _ (flatOut x0 x1 x2 x3) _ ?_ y
    (cover0_A_4 c i arg1 harg1 arg2 harg2 arg3 harg3 arg4 harg4 arg5 harg5 x0 x1 x2 x3 y)
  unfold kernelRun0_A
  dsimp only
  sl_unfold_words
  intro p hp x
  simp only [List.mem_cons, List.mem_nil_iff, or_false] at hp
  rcases hp with rfl | rfl | rfl | rfl
  · exact (congrFun (pay1_eq _ _ _ _) x).trans (piece_apply arg1 harg1 arg2 harg2 arg3 harg3 arg4 harg4 x0 x1 x2 x3 96 _ _ _ x)
  · exact (congrFun (pay8_eq _ _ _ _) x).trans (piece_apply arg1 harg1 arg2 harg2 arg3 harg3 arg4 harg4 x0 x1 x2 x3 64 _ _ _ x)
  · exact (congrFun (pay4_eq _ _ _ _) x).trans (piece_apply arg1 harg1 arg2 harg2 arg3 harg3 arg4 harg4 x0 x1 x2 x3 32 _ _ _ x)
  · exact piece_apply arg1 harg1 arg2 harg2 arg3 harg3 arg4 harg4 x0 x1 x2 x3 0 _ _ _ x

end Cert.Attn.Block

end
-- ==== Proof.ArrayValue.lean ====
/-
  The output array after the region.

  Grid point `t` stages rows `128·t … 128·t + 127` of the flat query, key and value arrays (and the whole mask), and writes
  back rows `128·t … 128·t + 127` of the flat output. What it writes back is the block function of its input blocks
  (`BlockValue`), and a row of attention depends only on its own problem, so it is rows `128·t …` of ONE function of the
  flat arrays: `Attn.flatOut` at `(p, r, d)`. The 32 points' blocks cover the 4096 problems (problem `p` is in
  point `p / 128`'s block), so the array ends at that function.
-/
import proofs.«162098_j6725918786261_2_alg».proof.Proof.BlockValue
import Idealize.ShloMosaic.Lib.Pipeline.Value

set_option maxRecDepth 16384

noncomputable section

namespace Cert.Attn.Arr

open Idealize.ShloMosaic Idealize.ShloMosaic.ValueIdx Idealize.ShloMosaic.TcCoe Idealize.SL.Sem
open Idealize.ShloMosaic.Pipeline (Dat)
open Cert.KernelIdeal Cert.KernelIdeal.Gen Cert.Attn Cert.Attn.Block

/-- The block function of the rows `128·T … 128·T + 127` of flat arrays is those rows of the flat function: a row of
    attention reads only its own problem's queries, keys and values. Stated over plain functions, the block's index
    `j` and the array's index `e` related coordinate by coordinate. -/
theorem flatOut_block (Y0 Y1 : S4096x56x56.Idx → EReal) (Y2 : S4096x56x64.Idx → EReal) (Y3 : S1x56x56.Idx → EReal)
    (b0 b1 : S128x56x56.Idx → EReal) (b2 : S128x56x64.Idx → EReal) (b3 : S1x56x56.Idx → EReal) (T : Nat) (hT : T < 32)
    (h0 : ∀ (N : Fin 128) (r k : Fin 56), b0 (ix3 N r k) = Y0 (ix3 (⟨T * 128 + N.val, by omega⟩ : Fin 4096) r k))
    (h1 : ∀ (N : Fin 128) (r k : Fin 56), b1 (ix3 N r k) = Y1 (ix3 (⟨T * 128 + N.val, by omega⟩ : Fin 4096) r k))
    (h2 : ∀ (N : Fin 128) (k : Fin 56) (d : Fin 64), b2 (ix3 N k d) = Y2 (ix3 (⟨T * 128 + N.val, by omega⟩ : Fin 4096) k d))
    (h3 : ∀ (u : Fin 1) (r k : Fin 56), b3 (ix3 u r k) = Y3 (ix3 u r k))
    (j : S128x56x64.Idx) (e : S4096x56x64.Idx)
    (he0 : (e 0).val = T * 128 + (j 0).val) (he1 : (e 1).val = (j 1).val) (he2 : (e 2).val = (j 2).val) :
    flatOut b0 b1 b2 b3 j = flatOut Y0 Y1 Y2 Y3 e := by
  obtain ⟨N, r, d, rfl⟩ : ∃ (N : Fin 128) (r : Fin 56) (d : Fin 64), j = ix3 N r d := ⟨j 0, j 1, j 2, eq_ix3 j⟩
  have hb : T * 128 + N.val < 4096 := by have := N.isLt; omega
  have hE : e = ix3 (⟨T * 128 + N.val, hb⟩ : Fin 4096) r d :=
    funext fun a => Fin.ext (by
      match a with
      | ⟨0, _⟩ => exact he0
      | ⟨1, _⟩ => exact he1
      | ⟨2, _⟩ => exact he2)
  rw [hE]
  exact congr (congrArg rowOut (congr (congr (congrArg score (funext fun k => h0 N r k)) (funext fun k => h1 N k r))
    (funext fun k => h3 0 r k))) (funext fun k => h2 N k d)

variable (m : (ℓ : Loc nD τ sig) → Buf (Elt Ideal) ℓ) (ρ : Dev nD → PrngReg)

/-- The printed index maps over the grid: windows 0, 1, 2 and 4 sit at block `t` on the problems' axis and at block 0
    on the others; the mask's window stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The flat output array's function of the flat arrays as the region finds them. -/
abbrev G (c : Dev nD) : S4096x56x64.Idx → EReal :=
  flatOut (V m c main_v0 : S4096x56x56.Idx → EReal) (V m c main_v1 : S4096x56x56.Idx → EReal)
    (V m c main_v2 : S4096x56x64.Idx → EReal) (V m c main_arg3 : S1x56x56.Idx → EReal)

/-- What point `t` writes back is block `t` of that function. -/
theorem flushed_eq (c : Dev nD) (t : Fin cfg0.N) :
    (dats m 0 c).flushed 4 t = ((cfg0.win 4).blk t).view.read (Elt Ideal) (G m c) := by
  have hN : cfg0.N = 32 := N_0
  have ht : t.val < 32 := by have := t.isLt; omega
  obtain ⟨e00, e01, e02, e10, e11, e12, e20, e21, e22, e30, e31, e32, e40, e41, e42⟩ := idx_facts t
  show (cfg0.win 4).cut (grid0.coords t) ((dats m 0 c).after 4 t) = _
  rw [after0_4]
  unfold outsAt0
  funext j
  show out0_A_4 (F := Ideal) c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t) (iblk m c 3 t) j
    = G m c (((cfg0.win 4).blk t).view.emb j)
  refine (congrFun (block_eq c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t) (iblk m c 3 t)) j).trans ?_
  refine flatOut_block (V m c main_v0) (V m c main_v1) (V m c main_v2) (V m c main_arg3)
    (iblk m c 0 t) (iblk m c 1 t) (iblk m c 2 t) (iblk m c 3 t) t.val ht ?_ ?_ ?_ ?_ j (((cfg0.win 4).blk t).view.emb j) ?_ ?_ ?_
  · intro N r k
    show V m c main_v0 (((cfg0.win 0).blk t).view.emb (ix3 N r k)) = V m c main_v0 _
    refine congrArg (V m c main_v0) (funext fun a => Fin.ext ?_)
    match a with
    | ⟨0, _⟩ => show win0_0.index t (0 : Fin 3) * 128 + 1 * N.val = t.val * 128 + N.val; rw [e00]; omega
    | ⟨1, _⟩ => show win0_0.index t (1 : Fin 3) * 56 + 1 * r.val = r.val; rw [e01]; omega
    | ⟨2, _⟩ => show win0_0.index t (2 : Fin 3) * 56 + 1 * k.val = k.val; rw [e02]; omega
  · intro N r k
    show V m c main_v1 (((cfg0.win 1).blk t).view.emb (ix3 N r k)) = V m c main_v1 _
    refine congrArg (V m c main_v1) (funext fun a => Fin.ext ?_)
    match a with
    | ⟨0, _⟩ => show win0_1.index t (0 : Fin 3) * 128 + 1 * N.val = t.val * 128 + N.val; rw [e10]; omega
    | ⟨1, _⟩ => show win0_1.index t (1 : Fin 3) * 56 + 1 * r.val = r.val; rw [e11]; omega
    | ⟨2, _⟩ => show win0_1.index t (2 : Fin 3) * 56 + 1 * k.val = k.val; rw [e12]; omega
  · intro N k d
    show V m c main_v2 (((cfg0.win 2).blk t).view.emb (ix3 N k d)) = V m c main_v2 _
    refine congrArg (V m c main_v2) (funext fun a => Fin.ext ?_)
    match a with
    | ⟨0, _⟩ => show win0_2.index t (0 : Fin 3) * 128 + 1 * N.val = t.val * 128 + N.val; rw [e20]; omega
    | ⟨1, _⟩ => show win0_2.index t (1 : Fin 3) * 56 + 1 * k.val = k.val; rw [e21]; omega
    | ⟨2, _⟩ => show win0_2.index t (2 : Fin 3) * 64 + 1 * d.val = d.val; rw [e22]; omega
  · intro u r k
    show V m c main_arg3 (((cfg0.win 3).blk t).view.emb (ix3 u r k)) = V m c main_arg3 _
    refine congrArg (V m c main_arg3) (funext fun a => Fin.ext ?_)
    match a with
    | ⟨0, _⟩ => show win0_3.index t (0 : Fin 3) * 1 + 1 * u.val = u.val; rw [e30]; omega
    | ⟨1, _⟩ => show win0_3.index t (1 : Fin 3) * 56 + 1 * r.val = r.val; rw [e31]; omega
    | ⟨2, _⟩ => show win0_3.index t (2 : Fin 3) * 56 + 1 * k.val = k.val; rw [e32]; omega
  · show win0_4.index t (0 : Fin 3) * 128 + 1 * (j 0).val = t.val * 128 + (j 0).val; rw [e40]; omega
  · show win0_4.index t (1 : Fin 3) * 56 + 1 * (j 1).val = (j 1).val; rw [e41]; omega
  · show win0_4.index t (2 : Fin 3) * 64 + 1 * (j 2).val = (j 2).val; rw [e42]; omega

/-- An index of the flat output is in point `t`'s block iff each coordinate is in the block's range on its axis. -/
theorem mem_blk (t : Fin cfg0.N) (i : S4096x56x64.Idx) :
    i ∈ ((cfg0.win 4).blk t).view.set ↔ ∀ a : Fin 3, win0_4.index t a * S128x56x64.size a ≤ (i a).val
      ∧ (i a).val < win0_4.index t a * S128x56x64.size a + S128x56x64.size a := by
  show i ∈ ((View.whole main_v3).slice (win0_4.rect t)).set ↔ _
  rw [View.set_slice_whole, Rect.mem_set_unit]
  exact Iff.rfl

/-- Problem `p` is in point `p / 128`'s block. -/
theorem cover (i : S4096x56x64.Idx) :
    ∃ t : Fin cfg0.N, (cfg0.win 4).flush t = true ∧ i ∈ ((cfg0.win 4).blk t).view.set := by
  have hN : cfg0.N = 32 := N_0
  have hi0 : (i 0).val < 4096 := (i 0).isLt
  have hi1 : (i 1).val < 56 := (i 1).isLt
  have hi2 : (i 2).val < 64 := (i 2).isLt
  have hlt : (i 0).val / 128 < cfg0.N := by omega
  obtain ⟨-, -, -, -, -, -, -, -, -, -, -, -, e40, e41, e42⟩ := idx_facts ⟨(i 0).val / 128, hlt⟩
  refine ⟨⟨(i 0).val / 128, hlt⟩, flush0_4 _, ?_⟩
  rw [mem_blk]
  intro a
  match a with
  | ⟨0, _⟩ =>
    show win0_4.index ⟨(i 0).val / 128, hlt⟩ (0 : Fin 3) * 128 ≤ (i 0).val
      ∧ (i 0).val < win0_4.index ⟨(i 0).val / 128, hlt⟩ (0 : Fin 3) * 128 + 128
    rw [e40]; show (i 0).val / 128 * 128 ≤ (i 0).val ∧ (i 0).val < (i 0).val / 128 * 128 + 128; omega
  | ⟨1, _⟩ =>
    show win0_4.index ⟨(i 0).val / 128, hlt⟩ (1 : Fin 3) * 56 ≤ (i 1).val
      ∧ (i 1).val < win0_4.index ⟨(i 0).val / 128, hlt⟩ (1 : Fin 3) * 56 + 56
    rw [e41]; omega
  | ⟨2, _⟩ =>
    show win0_4.index ⟨(i 0).val / 128, hlt⟩ (2 : Fin 3) * 64 ≤ (i 2).val
      ∧ (i 2).val < win0_4.index ⟨(i 0).val / 128, hlt⟩ (2 : Fin 3) * 64 + 64
    rw [e42]; omega

/-- The flat output array after the region: the flat function of the flat arrays as the region finds them. -/
theorem final (c : Dev nD) : (dats m 0 c).arrAt 4 cfg0.N = G m c :=
  (dats m 0 c).arrAt_eq_of_cover 4 (G m c) (fun t _ => flushed_eq m c t) cover

end Cert.Attn.Arr

end
-- ==== Proof.HostSide.lean ====
/-
  The host operations around the region, and the kernel's run with its result named.

  Before the region the program flattens batch and head into one axis of 4096 problems (three reshapes); after it, it
  unflattens the result. A reshape keeps row-major positions, so flat problem `p = 16·b + h` is head `h` of batch `b`:
  the flat query at `(p, r, k)` is the query at `(b, h, r, k)`, and likewise for keys, values and the result. Through these
  the flat output's function (`ArrayValue`) becomes `Attn.headOut` of the four arguments, at `(b, h, r, d)`.
-/
import proofs.«162098_j6725918786261_2_alg».proof.Proof.ArrayValue
import Idealize.ShloMosaic.Lib.StableHlo.Run

set_option maxRecDepth 16384

noncomputable section

namespace Cert.Attn.Host

open Idealize.ShloMosaic Idealize.ShloMosaic.ValueIdx Idealize.ShloMosaic.TcCoe Idealize.SL.Sem Idealize.ShloMosaic.StableHlo
open Idealize.ShloMosaic.Pipeline (Dat)
open Cert.KernelIdeal Cert.KernelIdeal.Gen Cert.Attn Cert.Attn.Arr

/-! ## Flattening batch and head, at an index -/

section Reshape
variable {α : Type}

/-- `[256, 16, 56, K]` flattened to `[4096, 56, K]` reads, at `(16·b + h, r, k)`, the operand at `(b, h, r, k)`. -/
theorem flat_apply {K : Nat} (x : (⟨4, ![256, 16, 56, K]⟩ : Shape).Idx → α)
    (hc : (⟨4, ![256, 16, 56, K]⟩ : Shape).ShapeCasts ⟨3, ![4096, 56, K]⟩)
    (b : Fin 256) (h : Fin 16) (r : Fin 56) (k : Fin K) (p : Fin 4096) (hp : p.val = b.val * 16 + h.val) :
    shapeCast ⟨3, ![4096, 56, K]⟩ x hc (ix3 p r k) = x (ix4 b h r k) :=
  shapeCast_apply x hc _ _ (by
    rw [Shape.rowMajor_val_four, Shape.rowMajor_val_three]
    show ((b.val * 16 + h.val) * 56 + r.val) * K + k.val = (p.val * 56 + r.val) * K + k.val
    rw [hp])

/-- `[4096, 56, K]` unflattened to `[256, 16, 56, K]` reads, at `(b, h, r, k)`, the operand at `(16·b + h, r, k)`. -/
theorem head_apply {K : Nat} (y : (⟨3, ![4096, 56, K]⟩ : Shape).Idx → α)
    (hc : (⟨3, ![4096, 56, K]⟩ : Shape).ShapeCasts ⟨4, ![256, 16, 56, K]⟩)
    (b : Fin 256) (h : Fin 16) (r : Fin 56) (k : Fin K) (p : Fin 4096) (hp : p.val = b.val * 16 + h.val) :
    shapeCast ⟨4, ![256, 16, 56, K]⟩ y hc (ix4 b h r k) = y (ix3 p r k) :=
  shapeCast_apply y hc _ _ (by
    rw [Shape.rowMajor_val_three, Shape.rowMajor_val_four]
    show (p.val * 56 + r.val) * K + k.val = ((b.val * 16 + h.val) * 56 + r.val) * K + k.val
    rw [hp])

end Reshape

variable (m : (ℓ : Loc nD τ sig) → Buf (Elt Ideal) ℓ) (ρ : Dev nD → PrngReg)

/-! ## The flat arrays the region finds -/

theorem V_v0 (c : Dev nD) : (V m c main_v0 : S4096x56x56.Idx → EReal)
    = shapeCast S4096x56x56 (m ((c.tc : Thread nD τ).loc main_arg0)) shapeCasts_S256x16x56x56_S4096x56x56 := by
  show StableHlo.after hostOps0 (fun b => m (c, b)) (Proc.devRef .tc main_v0) = _
  after_results
  rfl

theorem V_v1 (c : Dev nD) : (V m c main_v1 : S4096x56x56.Idx → EReal)
    = shapeCast S4096x56x56 (m ((c.tc : Thread nD τ).loc main_arg1)) shapeCasts_S256x16x56x56_S4096x56x56 := by
  show StableHlo.after hostOps0 (fun b => m (c, b)) (Proc.devRef .tc main_v1) = _
  after_results
  rfl

theorem V_v2 (c : Dev nD) : (V m c main_v2 : S4096x56x64.Idx → EReal)
    = shapeCast S4096x56x64 (m ((c.tc : Thread nD τ).loc main_arg2)) shapeCasts_S256x16x56x64_S4096x56x64 := by
  show StableHlo.after hostOps0 (fun b => m (c, b)) (Proc.devRef .tc main_v2) = _
  after_results
  rfl

/-- The flat output's function at problem `16·b + h` is the arguments' attention at `(b, h, ·, ·)`. -/
theorem G_apply (c : Dev nD) (b : Fin 256) (h : Fin 16) (r : Fin 56) (d : Fin 64) (p : Fin 4096) (hp : p.val = b.val * 16 + h.val) :
    G m c (ix3 p r d)
      = headOut (m ((c.tc : Thread nD τ).loc main_arg0)) (m ((c.tc : Thread nD τ).loc main_arg1)) (m ((c.tc : Thread nD τ).loc main_arg2)) (m ((c.tc : Thread nD τ).loc main_arg3)) (ix4 b h r d) := by
  show flatOut (V m c main_v0 : S4096x56x56.Idx → EReal) (V m c main_v1 : S4096x56x56.Idx → EReal)
      (V m c main_v2 : S4096x56x64.Idx → EReal) (V m c main_arg3 : S1x56x56.Idx → EReal) (ix3 p r d) = _
  rw [V_v0, V_v1, V_v2, V_main_arg3]
  exact congr (congrArg rowOut (congr (congr (congrArg score (funext fun k => flat_apply _ _ b h r k p hp))
    (funext fun k => flat_apply _ _ b h k r p hp)) rfl)) (funext fun k => flat_apply _ _ b h k d p hp)

/-! ## The result after the tail -/

/-- The program's result: the attention of the arguments, head by head. -/
theorem tail_eq (c : Dev nD) :
    (Pipeline.afterTail₀ cfgs (dats m) 0 (V0 m) [hostOps1] c main_v4 : S256x16x56x64.Idx → EReal)
      = headOut (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3) = G m c :=
    (Pipeline.withArrays_arr spec0 launch0.win.arr_inj c _ _ 4).trans (final m c)
  funext i
  obtain ⟨b, h, r, d, rfl⟩ : ∃ (b : Fin 256) (h : Fin 16) (r : Fin 56) (d : Fin 64), i = ix4 b h r d :=
    ⟨i 0, i 1, i 2, i 3, eq_ix4 i⟩
  have hp : b.val * 16 + h.val < 4096 := by have := b.isLt; have := h.isLt; omega
  show shapeCast S256x16x56x64 (Pipeline.withArrays (cfgs 0).spec c (V0 m c) (fun w => (dats m 0 c).arrAt w (cfgs 0).N)
      (Proc.devRef .tc main_v3)) shapeCasts_S4096x56x64_S256x16x56x64 (ix4 b h r d) = _
  rw [hw, head_apply _ _ b h r d ⟨b.val * 16 + h.val, hp⟩ rfl]
  exact G_apply m c b h r d ⟨b.val * 16 + h.val, hp⟩ rfl

/-! ## The run -/

/-- Every weakly fair execution of the idealized kernel program terminates with its result at the attention of the
    arguments and the arguments unchanged. -/
theorem run : θ_run defs (onTc (τ := τ) (main (F := Ideal))) ⟨m, fun _ => 0, ρ⟩ fun r => ∀ c : Dev nD,
      r.2.mem ((c.tc : Thread nD τ).loc main_v4)
        = headOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.Attn.Host

end
-- ==== Proof.RefValue.lean ====
/-
  The reference's result is the attention of its arguments, head by head.

  The reference computes, over whole `[256, 16, 56, 56]` arrays: the scores `q + kᵀ · scale + mask` (the mask broadcast
  over batch and head); each row's maximum from −∞, then once more the maximum of −∞ and that, which changes nothing;
  the exponentials of the shifted scores; each row's sum from 0; the quotient; and the product with the values over
  the key axis. Read at `(b, h, r, ·)` each stage is the corresponding piece of `Attn`'s row: the same row function
  the kernel computes.
-/
import proofs.«162098_j6725918786261_2_alg».proof.Proof.Gen.ReferenceIdeal.Read
import proofs.«162098_j6725918786261_2_alg».proof.Proof.Softmax
import Idealize.ShloMosaic.PureOps.Reduce
import Idealize.ShloMosaic.PureOps.Ideal.Laws

noncomputable section

namespace Cert.Attn.Ref

open Idealize.ShloMosaic Idealize.ShloMosaic.ValueIdx Cert.ReferenceIdeal Cert.ReferenceIdeal.Gen Cert.ReferenceIdeal.Read Cert.Attn

/-- The maximum of −∞ and anything is that thing. -/
theorem negInf_max (x : EReal) : max (Ideal.ofBits .f32 0xFF800000#32) x = x := by
  simp [Ideal.ofBits, Ideal.ieee]

/-- The key axis can be reduced out of `[256, 16, 56, 56]`. -/
theorem red : S256x16x56x56.Reduces [3] S256x16x56 := by decide

/-- The row `(b, h, r)` with entry `k` inserted on the reduced axis is `(b, h, r, k)`. -/
theorem lift_eq (b : Fin 256) (h : Fin 16) (r k : Fin 56) : red.lift (ix3 b h r) k = ix4 b h r k :=
  funext fun a => Fin.ext (by match a with | ⟨0, _⟩ => rfl | ⟨1, _⟩ => rfl | ⟨2, _⟩ => rfl | ⟨3, _⟩ => rfl)

variable (x0 x1 : (⟨S256x16x56x56, .f32⟩ : BufTy).Contents (Elt Ideal)) (x3 : (⟨S1x56x56, .f32⟩ : BufTy).Contents (Elt Ideal))

/-- Row `r` of head `(b, h)`'s scores. -/
abbrev srow (b : Fin 256) (h : Fin 16) (r : Fin 56) : Fin 56 → EReal :=
  score (fun j => x0 (ix4 b h r j)) (fun j => x1 (ix4 b h j r)) (fun j => x3 (ix3 (0 : Fin 1) r j))

theorem scores_apply (b : Fin 256) (h : Fin 16) (r k : Fin 56) :
    val_main_v6 (F := Ideal) x0 x1 x3 (ix4 b h r k) = srow x0 x1 x3 b h r k := by
  rw [val_main_v6_apply, val_main_v3_apply, val_main_v2_apply, val_main_v0_apply, val_main_v1_apply, val_main_cst_apply,
    val_main_v5_apply, val_main_v4_apply]
  have e0 : idx_main_v0 (ix4 b h r k) = ix4 b h k r :=
    funext fun a => Fin.ext (by match a with | ⟨0, _⟩ => rfl | ⟨1, _⟩ => rfl | ⟨2, _⟩ => rfl | ⟨3, _⟩ => rfl)
  have e4 : idx_main_v4 (idx_main_v5 (ix4 b h r k)) = ix3 (0 : Fin 1) r k :=
    funext fun a => Fin.ext (by match a with | ⟨0, _⟩ => rfl | ⟨1, _⟩ => rfl | ⟨2, _⟩ => rfl)
  rw [e0, e4]
  rfl

set_option maxRecDepth 65536 in
theorem rowmax_apply (b : Fin 256) (h : Fin 16) (r : Fin 56) :
    val_main_v7 (F := Ideal) x0 x1 x3 (ix3 b h r) = rowMax (srow x0 x1 x3 b h r) := by
  unfold val_main_v7
  refine (Host.reduce_eq_fold_single (FloatOps.maximumf (F := Ideal) (φ := .f32)) (val_main_v6 (F := Ideal) x0 x1 x3) (val_main_cst_0 (F := Ideal))
    reducesTo_S256x16x56x56_S256x16x56_d3 red h_S_ (ix3 b h r)).trans ?_
  unfold rowMax
  exact congrArg (fun f => (Finset.univ : Finset (Fin 56)).fold max (Ideal.ofBits .f32 0xFF800000#32) f)
    (funext fun k => (congrArg (val_main_v6 (F := Ideal) x0 x1 x3) (lift_eq b h r k)).trans (scores_apply x0 x1 x3 b h r k))

theorem rowmax2_apply (b : Fin 256) (h : Fin 16) (r : Fin 56) :
    val_main_v9 (F := Ideal) x0 x1 x3 (ix3 b h r) = rowMax (srow x0 x1 x3 b h r) := by
  rw [val_main_v9_apply, val_main_v8_apply, val_main_cst_1_apply, rowmax_apply]
  exact negInf_max _

theorem rowmax_bcast_apply (b : Fin 256) (h : Fin 16) (r k : Fin 56) :
    val_main_v11 (F := Ideal) x0 x1 x3 (ix4 b h r k) = rowMax (srow x0 x1 x3 b h r) := by
  rw [val_main_v11_apply, val_main_v10_apply]
  have e : idx_main_v10 (idx_main_v11 (ix4 b h r k)) = ix3 b h r :=
    funext fun a => Fin.ext (by match a with | ⟨0, _⟩ => rfl | ⟨1, _⟩ => rfl | ⟨2, _⟩ => rfl)
  rw [e, rowmax2_apply]

theorem exp_apply (b : Fin 256) (h : Fin 16) (r k : Fin 56) :
    val_main_v13 (F := Ideal) x0 x1 x3 (ix4 b h r k) = rowExp (srow x0 x1 x3 b h r) k := by
  rw [val_main_v13_apply, val_main_v12_apply, scores_apply, rowmax_bcast_apply]
  rfl

theorem rowsum_apply (b : Fin 256) (h : Fin 16) (r : Fin 56) :
    val_main_v14 (F := Ideal) x0 x1 x3 (ix3 b h r) = ∑ k : Fin 56, rowExp (srow x0 x1 x3 b h r) k := by
  rw [val_main_v14_apply, val_main_cst_2_apply]
  show Ideal.ofBits .f32 0x00000000#32 + _ = _
  rw [Ideal.ofBits_zero_f32, zero_add]
  refine Finset.sum_congr rfl fun k _ => ?_
  have e : idx_main_v14 (ix3 b h r) k = ix4 b h r k :=
    funext fun a => Fin.ext (by match a with | ⟨0, _⟩ => rfl | ⟨1, _⟩ => rfl | ⟨2, _⟩ => rfl | ⟨3, _⟩ => rfl)
  rw [e, exp_apply]

theorem weight_apply (b : Fin 256) (h : Fin 16) (r k : Fin 56) :
    val_main_v17 (F := Ideal) x0 x1 x3 (ix4 b h r k) = rowWeight (srow x0 x1 x3 b h r) k := by
  rw [val_main_v17_apply, exp_apply, val_main_v16_apply, val_main_v15_apply]
  have e : idx_main_v15 (idx_main_v16 (ix4 b h r k)) = ix3 b h r :=
    funext fun a => Fin.ext (by match a with | ⟨0, _⟩ => rfl | ⟨1, _⟩ => rfl | ⟨2, _⟩ => rfl)
  rw [e, rowsum_apply]
  rfl

/-- The reference's result, as a function of its arguments, is the attention head by head. -/
theorem result_eq (x2 : (⟨S256x16x56x64, .f32⟩ : BufTy).Contents (Elt Ideal)) :
    val_main_v18 (F := Ideal) x0 x1 x2 x3 = headOut x0 x1 x2 x3 := by
  funext i
  obtain ⟨b, h, r, d, rfl⟩ : ∃ (b : Fin 256) (h : Fin 16) (r : Fin 56) (d : Fin 64), i = ix4 b h r d :=
    ⟨i 0, i 1, i 2, i 3, eq_ix4 i⟩
  rw [val_main_v18_apply]
  show _ = ∑ k : Fin 56, rowWeight (srow x0 x1 x3 b h r) k * x2 (ix4 b h k d)
  refine Finset.sum_congr rfl fun k _ => ?_
  have el : lidx_main_v18 (ix4 b h r d) k = ix4 b h r k :=
    funext fun a => Fin.ext (by match a with | ⟨0, _⟩ => rfl | ⟨1, _⟩ => rfl | ⟨2, _⟩ => rfl | ⟨3, _⟩ => rfl)
  have er : ridx_main_v18 (ix4 b h r d) k = ix4 b h k d :=
    funext fun a => Fin.ext (by match a with | ⟨0, _⟩ => rfl | ⟨1, _⟩ => rfl | ⟨2, _⟩ => rfl | ⟨3, _⟩ => rfl)
  rw [el, er, weight_apply]

end Cert.Attn.Ref

end
-- ==== Proof.lean ====
/-
  Masked attention over 4096 independent heads: a Pallas kernel against its jnp reference, on the extended reals.

  Both programs compute, for every batch `b`, head `h`, query row `r` and value column `d`,

      out[b, h, r, d] = ∑ₖ softmax(q[b, h, r, ·] + k[b, h, ·, r] · scale + mask[0, r, ·])ₖ · v[b, h, k, d],

  the softmax taken as: shift the row by its maximum, exponentiate, divide by the row's sum (`Softmax.lean`:
  `Attn.headOut`). The kernel flattens batch and head into 4096 problems, walks them in 32 blocks of 128 and each block in
  four chunks of 32, narrows the weights and the values to bf16 before the product, and unflattens the result; the
  reference works on the whole arrays at once and takes the maximum against −∞ one extra time. On the extended reals a
  change of float format is the identity and `max(−∞, x) = x`, the tiling is a re-indexing (flat problem `16·b + h` is
  head `h` of batch `b`, and a row of attention reads only its own problem), and the scale constant is the same word
  on both sides: the two results are one function of the arguments, and no finiteness of the inputs is used.

  The road: `ChunkValue` reads one chunk's stored value at an index; `BlockValue` reads the four stores of a grid point
  back as one function of the point's input blocks; `ArrayValue` assembles the 32 blocks into the flat output array;
  `HostSide` carries that through the reshapes around the region and states the kernel's run; `RefValue` reads the
  reference's stages at an index and finds the same function. The three frame claims are the generated frame
  certificates (the reference's is its generated run with the result dropped); the idealization rewrote nothing.
-/
import proofs.«162098_j6725918786261_2_alg».proof.Defs
import proofs.«162098_j6725918786261_2_alg».proof.Proof.Gen.Kernel
import proofs.«162098_j6725918786261_2_alg».proof.Proof.Gen.Kernel.Skeleton
import proofs.«162098_j6725918786261_2_alg».proof.Proof.Gen.Kernel.Launch
import proofs.«162098_j6725918786261_2_alg».proof.Proof.Gen.Kernel.Points
import proofs.«162098_j6725918786261_2_alg».proof.Proof.Gen.Kernel.Frame
import proofs.«162098_j6725918786261_2_alg».proof.Proof.Gen.KernelIdeal
import proofs.«162098_j6725918786261_2_alg».proof.Proof.Gen.KernelIdeal.Skeleton
import proofs.«162098_j6725918786261_2_alg».proof.Proof.Gen.KernelIdeal.Launch
import proofs.«162098_j6725918786261_2_alg».proof.Proof.Gen.KernelIdeal.Points
import proofs.«162098_j6725918786261_2_alg».proof.Proof.Gen.KernelIdeal.Frame
import proofs.«162098_j6725918786261_2_alg».proof.Proof.Gen.ReferenceIdeal
import proofs.«162098_j6725918786261_2_alg».proof.Proof.Gen.ReferenceIdeal.Run
import proofs.«162098_j6725918786261_2_alg».proof.Proof.Gen.ReferenceIdeal.Read
import proofs.«162098_j6725918786261_2_alg».proof.Proof.Gen.Pre_finite_inputs
import proofs.«162098_j6725918786261_2_alg».proof.Proof.HostSide
import proofs.«162098_j6725918786261_2_alg».proof.Proof.RefValue
import Idealize.ShloMosaic.Adequacy
import Idealize.ShloMosaic.Init

noncomputable section

namespace Cert.Proof

open Idealize.ShloMosaic Idealize.SL.Sem

/-- The printed kernel program runs and leaves its arguments unchanged: its generated frame certificate. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference has no kernel: its frame is its generated run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the attention of those arguments: the
    kernel by `Attn.Host.run`, the reference by its generated run, whose result term is the same function
    (`Attn.Ref.result_eq`). -/
theorem algebraic : Cert.algebraic_KernelIdeal_ReferenceIdeal := by
  intro m ρ m' ρ' _ hagree
  refine ⟨_, Cert.Attn.Host.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Attn.Ref.result_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
